-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x100000 : Shape := ⟨2, ![256, 100000]⟩
abbrev S600000 : Shape := ⟨1, ![600000]⟩
abbrev S18000 : Shape := ⟨1, ![18000]⟩
abbrev S256x18000 : Shape := ⟨2, ![256, 18000]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S256x100000 : S_.BroadcastsInDim S256x100000 (![] : Fin 0 → Fin S256x100000.rank)
  reducesTo_S256x100000_S_d0_1 : S256x100000.ReducesTo [0, 1] S_
  h_S_ : 0 < S_.numel
  bcast_S_S600000 : S_.BroadcastsInDim S600000 (![] : Fin 0 → Fin S600000.rank)
  reducesTo_S600000_S_d0 : S600000.ReducesTo [0] S_
  bcast_S_S18000 : S_.BroadcastsInDim S18000 (![] : Fin 0 → Fin S18000.rank)
  reducesTo_S18000_S_d0 : S18000.ReducesTo [0] S_
  bcast_S_S256x18000 : S_.BroadcastsInDim S256x18000 (![] : Fin 0 → Fin S256x18000.rank)
  reducesTo_S256x18000_S_d0_1 : S256x18000.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S256 .f32) (main_arg7 : FVec F S1x256 .f32) (main_arg8 : FVec F S1 .f32) (main_v13 : IVec S_ 1) (main_v16 : IVec S256x18000 1) : IVec S_ 1 :=
  let main_c_5 : IVec S_ 1 := constantI S_ 1 1#1
  let main_v17 : IVec S_ 1 := (fun x v => Host.reduce IntOp.andi x v reducesTo_S256x18000_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256 .f32 := Host.absf main_arg7
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S256x100000 .f32) (main_arg1 : IVec S600000 32) (main_arg2 : IVec S600000 32) (main_arg3 : FVec F S600000 .f32) (main_arg4 : FVec F S18000 .f32) (main_arg5 : FVec F S256x18000 .f32) (main_arg6 : FVec F S256 .f32) (main_arg7 : FVec F S1x256 .f32) (main_arg8 : FVec F S1 .f32) : IVec S_ 1 :=
  let main_v0 : FVec F S256x100000 .f32 := Host.absf main_arg0
  let main_cst : FVec F S_ .f32 := constant S_ .f32 0x7F800000#32
  let main_v1 : FVec F S256x100000 .f32 := broadcastInDim S256x100000 ![] bcast_S_S256x100000 main_cst
  let main_v2 : IVec S256x100000 1 := cmpf .olt main_v0 main_v1
  let main_c : IVec S_ 1 := constantI S_ 1 1#1
  let main_v3 : IVec S_ 1 := (fun x v => Host.reduce IntOp.andi x v reducesTo_S256x100000_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S18000 .f32 := Host.absf main_arg4
  let main_cst_2 : FVec F S_ .f32 := constant S_ .f32 0x7F800000#32
  let main_v10 : FVec F S18000 .f32 := broadcastInDim S18000 ![] bcast_S_S18000 main_cst_2
  let main_v11 : IVec S18000 1 := cmpf .olt main_v9 main_v10
  let main_c_3 : IVec S_ 1 := constantI S_ 1 1#1
  let main_v12 : IVec S_ 1 := (fun x v => Host.reduce IntOp.andi x v reducesTo_S18000_S_d0 h_S_) main_v11 main_c_3
  let main_v13 : IVec S_ 1 := andi main_v8 main_v12
  let main_v14 : FVec F S256x18000 .f32 := Host.absf main_arg5
  let main_cst_4 : FVec F S_ .f32 := constant S_ .f32 0x7F800000#32
  let main_v15 : FVec F S256x18000 .f32 := broadcastInDim S256x18000 ![] bcast_S_S256x18000 main_cst_4
  let main_v16 : IVec S256x18000 1 := cmpf .olt main_v14 main_v15
  fn_part1 (F := F) main_arg6 main_arg7 main_arg8 main_v13 main_v16
-- ==== Kernel.lean ====
abbrev S256x100000 : Shape := ⟨2, ![256, 100000]⟩
abbrev S600000 : Shape := ⟨1, ![600000]⟩
abbrev S18000 : Shape := ⟨1, ![18000]⟩
abbrev S256x18000 : Shape := ⟨2, ![256, 18000]⟩
abbrev S256 : Shape := ⟨1, ![256]⟩
abbrev S1x256 : Shape := ⟨2, ![1, 256]⟩
abbrev S1 : Shape := ⟨1, ![1]⟩
abbrev S_ : Shape := ⟨0, ![]⟩
abbrev S600000x1 : Shape := ⟨2, ![600000, 1]⟩
abbrev S256x600000 : Shape := ⟨2, ![256, 600000]⟩
abbrev S1x600000 : Shape := ⟨2, ![1, 600000]⟩
abbrev S1x18000 : Shape := ⟨2, ![1, 18000]⟩
abbrev S256x18048 : Shape := ⟨2, ![256, 18048]⟩
abbrev S256x1 : Shape := ⟨2, ![256, 1]⟩
abbrev S128x6016 : Shape := ⟨2, ![128, 6016]⟩
abbrev S256x6016 : Shape := ⟨2, ![256, 6016]⟩
abbrev S128x1 : Shape := ⟨2, ![128, 1]⟩
abbrev S128x256 : Shape := ⟨2, ![128, 256]⟩
abbrev S128 : Shape := ⟨1, ![128]⟩
abbrev S1x1 : Shape := ⟨2, ![1, 1]⟩

abbrev nBuf : Space → Nat
  | .hbm => 43
  | .vmem => 10
  | .smem => 0
  | _ => 0

abbrev bufTy : (tb : Table) → Fin (tcTables nBuf tb) → BufTy
  | .hbm, ⟨0, _⟩ => ⟨S256x100000, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S18000, .f32⟩
  | .hbm, ⟨5, _⟩ => ⟨S256x18000, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S256x600000, .f32⟩
  | .hbm, ⟨18, _⟩ => ⟨S1x600000, .f32⟩
  | .hbm, ⟨19, _⟩ => ⟨S256x600000, .f32⟩
  | .hbm, ⟨20, _⟩ => ⟨S256x600000, .f32⟩
  | .hbm, ⟨21, _⟩ => ⟨S_, .f32⟩
  | .hbm, ⟨22, _⟩ => ⟨S256x18000, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S256x18000, .f32⟩
  | .hbm, ⟨32, _⟩ => ⟨S1x18000, .f32⟩
  | .hbm, ⟨33, _⟩ => ⟨S256x18000, .f32⟩
  | .hbm, ⟨34, _⟩ => ⟨S256x18000, .f32⟩
  | .hbm, ⟨35, _⟩ => ⟨S_, .i32⟩
  | .hbm, ⟨36, _⟩ => ⟨S_, .f32⟩
  | .hbm, ⟨37, _⟩ => ⟨S256x18048, .f32⟩
  | .hbm, ⟨38, _⟩ => ⟨S_, .i32⟩
  | .hbm, ⟨39, _⟩ => ⟨S_, .f32⟩
  | .hbm, ⟨40, _⟩ => ⟨S256x18048, .f32⟩
  | .hbm, ⟨41, _⟩ => ⟨S256x1, .f32⟩
  | .hbm, ⟨42, _⟩ => ⟨S256, .f32⟩
  | .local _ .vmem, ⟨0, _⟩ => ⟨S128x6016, .f32⟩
  | .local _ .vmem, ⟨1, _⟩ => ⟨S128x6016, .f32⟩
  | .local _ .vmem, ⟨2, _⟩ => ⟨S256x6016, .f32⟩
  | .local _ .vmem, ⟨3, _⟩ => ⟨S256x6016, .f32⟩
  | .local _ .vmem, ⟨4, _⟩ => ⟨S1x256, .f32⟩
  | .local _ .vmem, ⟨5, _⟩ => ⟨S256, .f32⟩
  | .local _ .vmem, ⟨6, _⟩ => ⟨S1, .f32⟩
  | .local _ .vmem, ⟨7, _⟩ => ⟨S128x1, .f32⟩
  | .local _ .vmem, ⟨8, _⟩ => ⟨S128x1, .f32⟩
  | .local _ .vmem, ⟨9, _⟩ => ⟨S128x256, .f32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_call0_v0 : Ref sig .tc := ⟨.hbm, 36, rfl⟩
abbrev main_v21 : Ref sig .tc := ⟨.hbm, 37, rfl⟩
abbrev main_c_4 : Ref sig .tc := ⟨.hbm, 38, rfl⟩
abbrev main_call1_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x6016 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x6016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000_S1x600000_1 : S600000.BroadcastsInDim S1x600000 (![1] : Fin 1 → Fin S1x600000.rank)
  bcast_S1x600000_S256x600000_0_1 : S1x600000.BroadcastsInDim S256x600000 (![0, 1] : Fin 2 → Fin S256x600000.rank)
  bcast_S_S256x18000 : S_.BroadcastsInDim S256x18000 (![] : Fin 0 → Fin S256x18000.rank)
  bcast_S18000_S1x18000_1 : S18000.BroadcastsInDim S1x18000 (![1] : Fin 1 → Fin S1x18000.rank)
  bcast_S1x18000_S256x18000_0_1 : S1x18000.BroadcastsInDim S256x18000 (![0, 1] : Fin 2 → Fin S256x18000.rank)
  pads_S256x18000_S256x18048_000_0480 : S256x18000.Pads (![0, 0] : Fin 2 → Nat) ![0, 48] ![0, 0] S256x18048
  h_S_ : 0 < S_.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x6016_S128x6016_0_0 : ∀ a, (![0, 0] : Fin 2 → Nat) a + S128x6016.size a ≤ S128x6016.size a
  h_S128x6016 : 0 < S128x6016.numel
  shapeCasts_S128x6016_S128x6016 : S128x6016.ShapeCasts S128x6016
  bitsLt_bf16_f32 : FTy.bits .bf16 < FTy.bits .f32
  inb_S256x6016_S256x6016_0_0 : ∀ a, (![0, 0] : Fin 2 → Nat) a + S256x6016.size a ≤ S256x6016.size a
  h_S256x6016 : 0 < S256x6016.numel
  shapeCasts_S256x6016_S256x6016 : S256x6016.ShapeCasts S256x6016
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S1x256_S1x256_0_0 : ∀ a, (![0, 0] : Fin 2 → Nat) a + S1x256.size a ≤ S1x256.size a
  h_S1x256 : 0 < S1x256.numel
  reduces_S128x256_S128 : S128x256.Reduces [1] S128
  shapeCasts_S128_S128x1 : S128.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  shapeCasts_S256x1_S256 : S256x1.ShapeCasts S256
  gather_S256x100000_S600000x1_S256x600000_0_1_n_n_1_1_2561_wf : GatherDims.WF S256x100000 S600000x1 S256x600000 [0] [1] [] [1] [] 1 ![256, 1]
  scatter_S256x18000_S600000x1_S256x600000_0_1_1_1_wf : ScatterDims.WF S256x18000 S600000x1 S256x600000 [0] [1] [1] 1
  dot_S128x6016_S256x6016_S128x256_1_1_0_0_n_n_wf : DotDims.WF S128x6016 S256x6016 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x6016.size a ≤ S256x18048.size a
  hwx0_0 : ∀ i : grid0.Coords, EltTy.bits .f32 = 32 ∨ (Rect.block (s := S256x18048) S128x6016.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6016.size a ≤ S256x18048.size a
  hwx0_1 : ∀ i : grid0.Coords, EltTy.bits .f32 = 32 ∨ (Rect.block (s := S256x18048) S256x6016.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S256x1.size a
  hwx0_5 : ∀ i : grid0.Coords, EltTy.bits .f32 = 32 ∨ (Rect.block (s := S256x1) S128x1.size (cc0_transform_5 i) (hinb0_5 i)).WholeWords (EltTy.packing .f32)

variable [Facts₀]

def gather_S256x100000_S600000x1_S256x600000_0_1_n_n_1_1_2561 : GatherDims S256x100000 S600000x1 S256x600000 where
  offsetDims := [0]
  collapsedSliceDims := [1]
  operandBatchingDims := []
  startIndicesBatchingDims := []
  startIndexMap := [1]
  indexVectorDim := 1
  sliceSizes := ![256, 1]
  wf := gather_S256x100000_S600000x1_S256x600000_0_1_n_n_1_1_2561_wf
def scatter_S256x18000_S600000x1_S256x600000_0_1_1_1 : ScatterDims S256x18000 S600000x1 S256x600000 where
  updateWindowDims := [0]
  insertedWindowDims := [1]
  scatterDimsToOperandDims := [1]
  indexVectorDim := 1
  wf := scatter_S256x18000_S600000x1_S256x600000_0_1_1_1_wf
def dot_S128x6016_S256x6016_S128x256_1_1_0_0_n_n : DotDims S128x6016 S256x6016 S128x256 where
  lhsContracting := [1]
  rhsContracting := [1]
  lhsNonContracting := [0]
  rhsNonContracting := [0]
  lhsBatch := []
  rhsBatch := []
  wf := dot_S128x6016_S256x6016_S128x256_1_1_0_0_n_n_wf

abbrev win0_0 : Pipeline.Window sig grid0 :=
  Pipeline.Window.ofSpec (Memref.whole main_v21) S128x6016.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S256x6016.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S256x100000 : Shape := ⟨2, ![256, 100000]⟩
abbrev S600000 : Shape := ⟨1, ![600000]⟩
abbrev S18000 : Shape := ⟨1, ![18000]⟩
abbrev S256x18000 : Shape := ⟨2, ![256, 18000]⟩
abbrev S256 : Shape := ⟨1, ![256]⟩
abbrev S1x256 : Shape := ⟨2, ![1, 256]⟩
abbrev S1 : Shape := ⟨1, ![1]⟩
abbrev S_ : Shape := ⟨0, ![]⟩
abbrev S600000x1 : Shape := ⟨2, ![600000, 1]⟩
abbrev S256x600000 : Shape := ⟨2, ![256, 600000]⟩
abbrev S1x600000 : Shape := ⟨2, ![1, 600000]⟩
abbrev S1x18000 : Shape := ⟨2, ![1, 18000]⟩
abbrev S18000x256 : Shape := ⟨2, ![18000, 256]⟩
abbrev S256x256 : Shape := ⟨2, ![256, 256]⟩
abbrev S256x1 : Shape := ⟨2, ![256, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S18000, .f32⟩
  | .hbm, ⟨5, _⟩ => ⟨S256x18000, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S256x600000, .f32⟩
  | .hbm, ⟨18, _⟩ => ⟨S1x600000, .f32⟩
  | .hbm, ⟨19, _⟩ => ⟨S256x600000, .f32⟩
  | .hbm, ⟨20, _⟩ => ⟨S256x600000, .f32⟩
  | .hbm, ⟨21, _⟩ => ⟨S_, .f32⟩
  | .hbm, ⟨22, _⟩ => ⟨S256x18000, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S256x18000, .f32⟩
  | .hbm, ⟨32, _⟩ => ⟨S1x18000, .f32⟩
  | .hbm, ⟨33, _⟩ => ⟨S256x18000, .f32⟩
  | .hbm, ⟨34, _⟩ => ⟨S256x18000, .f32⟩
  | .hbm, ⟨35, _⟩ => ⟨S18000x256, .f32⟩
  | .hbm, ⟨36, _⟩ => ⟨S256x256, .f32⟩
  | .hbm, ⟨37, _⟩ => ⟨S1x256, .f32⟩
  | .hbm, ⟨38, _⟩ => ⟨S256x256, .f32⟩
  | .hbm, ⟨39, _⟩ => ⟨S256x256, .f32⟩
  | .hbm, ⟨40, _⟩ => ⟨S256x1, .f32⟩
  | .hbm, ⟨41, _⟩ => ⟨S256x1, .f32⟩
  | .hbm, ⟨42, _⟩ => ⟨S1x1, .f32⟩
  | .hbm, ⟨43, _⟩ => ⟨S256x1, .f32⟩
  | .hbm, ⟨44, _⟩ => ⟨S256x1, .f32⟩
  | .hbm, ⟨45, _⟩ => ⟨S256, .f32⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000_S1x600000_1 : S600000.BroadcastsInDim S1x600000 (![1] : Fin 1 → Fin S1x600000.rank)
  bcast_S1x600000_S256x600000_0_1 : S1x600000.BroadcastsInDim S256x600000 (![0, 1] : Fin 2 → Fin S256x600000.rank)
  bcast_S_S256x18000 : S_.BroadcastsInDim S256x18000 (![] : Fin 0 → Fin S256x18000.rank)
  bcast_S18000_S1x18000_1 : S18000.BroadcastsInDim S1x18000 (![1] : Fin 1 → Fin S1x18000.rank)
  bcast_S1x18000_S256x18000_0_1 : S1x18000.BroadcastsInDim S256x18000 (![0, 1] : Fin 2 → Fin S256x18000.rank)
  transposes_S256x18000_S18000x256_1_0 : S256x18000.Transposes [1, 0] S18000x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S256x100000_S600000x1_S256x600000_0_1_n_n_1_1_2561_wf : GatherDims.WF S256x100000 S600000x1 S256x600000 [0] [1] [] [1] [] 1 ![256, 1]
  scatter_S256x18000_S600000x1_S256x600000_0_1_1_1_wf : ScatterDims.WF S256x18000 S600000x1 S256x600000 [0] [1] [1] 1
  dot_S256x18000_S18000x256_S256x256_1_0_0_1_n_n_wf : DotDims.WF S256x18000 S18000x256 S256x256 [1] [0] [0] [1] [] []
  dot_S256x256_S256x1_S256x1_1_0_0_1_n_n_wf : DotDims.WF S256x256 S256x1 S256x1 [1] [0] [0] [1] [] []

variable [Facts₀]

def gather_S256x100000_S600000x1_S256x600000_0_1_n_n_1_1_2561 : GatherDims S256x100000 S600000x1 S256x600000 where
  offsetDims := [0]
  collapsedSliceDims := [1]
  operandBatchingDims := []
  startIndicesBatchingDims := []
  startIndexMap := [1]
  indexVectorDim := 1
  sliceSizes := ![256, 1]
  wf := gather_S256x100000_S600000x1_S256x600000_0_1_n_n_1_1_2561_wf
def scatter_S256x18000_S600000x1_S256x600000_0_1_1_1 : ScatterDims S256x18000 S600000x1 S256x600000 where
  updateWindowDims := [0]
  insertedWindowDims := [1]
  scatterDimsToOperandDims := [1]
  indexVectorDim := 1
  wf := scatter_S256x18000_S600000x1_S256x600000_0_1_1_1_wf
def dot_S256x18000_S18000x256_S256x256_1_0_0_1_n_n : DotDims S256x18000 S18000x256 S256x256 where
  lhsContracting := [1]
  rhsContracting := [0]
  lhsNonContracting := [0]
  rhsNonContracting := [1]
  lhsBatch := []
  rhsBatch := []
  wf := dot_S256x18000_S18000x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.Pieces.lean ====
import proofs.«177045_j79053168050211_2_alg».proof.Proof.Gen.KernelIdeal.Frame
import Idealize.ShloMosaic.Lib.Pipeline.Value
import Idealize.ShloMosaic.Lib.Tactic

set_option maxRecDepth 16384

/-! What one run of the kernel body leaves behind, case by case along the reduction axis.

The body keeps a running sum `acc` of block products in a buffer carried from point to point: at the first point of
the reduction axis it resets `acc` to zero before adding, at every point it adds the product of the two input blocks
contracted over their last axis, and at the last point it also forms the output block from `acc`, the bias, the weight
row and the offset. Each statement below names the final contents of a buffer as the value of the LAST store that
covers it, with every load replaced by the whole contents it reads. -/

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

theorem hz1 : (![0] : Fin 1 → Nat) = fun _ => 0 := funext fun a => by fin_cases a; rfl
/-- The first point of the reduction axis: the body stores the zero block, reads it back, and stores the
    product added to it. The later store covers the accumulator, so it ends holding `0 + x0 ·ᵀ x1`; the value
    read back in between is what the first store (which also covers) left, namely the zero block. -/
theorem scratch_A (c : Dev nD) (i : grid0.Coords) (arg2 : Memref sig .tc .vmem S128x6016 .f32) (harg2 : arg2.IsWhole) (arg3 : Memref sig .tc .vmem S256x6016 .f32) (harg3 : arg3.IsWhole) (arg4 : Memref sig .tc .vmem S1x256 .f32) (harg4 : arg4.IsWhole) (arg5 : Memref sig .tc .vmem S256 .f32) (harg5 : arg5.IsWhole) (arg6 : Memref sig .tc .vmem S1 .f32) (harg6 : arg6.IsWhole) (arg7 : Memref sig .tc .vmem S128x1 .f32) (harg7 : arg7.IsWhole) (arg8 : Memref sig .tc .vmem S128x256 .f32) (harg8 : arg8.IsWhole) (hc0 : cond0_0 i) (hc1 : ¬cond0_1 i) (x0 : Vec F S128x6016 .f32) (x1 : Vec F S256x6016 .f32) (x2 : Vec F S1x256 .f32) (x3 : Vec F S256 .f32) (x4 : Vec F S1 .f32) :
    sout0_A_0 c i arg2 harg2 arg3 harg3 arg4 harg4 arg5 harg5 arg6 harg6 arg7 harg7 arg8 harg8 hc0 hc1 x0 x1 x2 x3 x4 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S128x256) hz2, View.readCov_unit_zero (S := S128x256) _ hz2]
  simp only [View.readAt_eq_ld, harg2.read_unread, harg3.read_unread,
    View.ld_unit_zero (S := S128x6016) hz2, View.ld_unit_zero (S := S256x6016) hz2]
/-- A middle point of the reduction axis (neither first nor last): the body's one store into the carried
    accumulator covers it, so the accumulator ends holding that store's payload — the product of the two input
    blocks added to the contents `xs0` the point before left; every load reads a whole buffer. -/
theorem scratch_B (c : Dev nD) (i : grid0.Coords) (arg2 : Memref sig .tc .vmem S128x6016 .f32) (harg2 : arg2.IsWhole) (arg3 : Memref sig .tc .vmem S256x6016 .f32) (harg3 : arg3.IsWhole) (arg4 : Memref sig .tc .vmem S1x256 .f32) (harg4 : arg4.IsWhole) (arg5 : Memref sig .tc .vmem S256 .f32) (harg5 : arg5.IsWhole) (arg6 : Memref sig .tc .vmem S1 .f32) (harg6 : arg6.IsWhole) (arg7 : Memref sig .tc .vmem S128x1 .f32) (harg7 : arg7.IsWhole) (arg8 : Memref sig .tc .vmem S128x256 .f32) (harg8 : arg8.IsWhole) (hc0 : ¬cond0_0 i) (hc1 : ¬cond0_1 i) (x0 : Vec F S128x6016 .f32) (x1 : Vec F S256x6016 .f32) (x2 : Vec F S1x256 .f32) (x3 : Vec F S256 .f32) (x4 : Vec F S1 .f32) (xs0 : Vec F S128x256 .f32) :
    sout0_B_0 c i arg2 harg2 arg3 harg3 arg4 harg4 arg5 harg5 arg6 harg6 arg7 harg7 arg8 harg8 hc0 hc1 x0 x1 x2 x3 x4 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero (S := S128x256) hz2]
  simp only [View.readAt_eq_ld, harg2.read_unread, harg3.read_unread, harg8.read_unread,
    View.ld_unit_zero (S := S128x6016) hz2, View.ld_unit_zero (S := S256x6016) hz2,
    View.ld_unit_zero (S := S128x256) hz2]
/-- The last point of the reduction axis, the accumulator: as at a middle point, its one covering store
    leaves the product added to the previous contents (the epilogue only reads it). -/
theorem scratch_C (c : Dev nD) (i : grid0.Coords) (arg2 : Memref sig .tc .vmem S128x6016 .f32) (harg2 : arg2.IsWhole) (arg3 : Memref sig .tc .vmem S256x6016 .f32) (harg3 : arg3.IsWhole) (arg4 : Memref sig .tc .vmem S1x256 .f32) (harg4 : arg4.IsWhole) (arg5 : Memref sig .tc .vmem S256 .f32) (harg5 : arg5.IsWhole) (arg6 : Memref sig .tc .vmem S1 .f32) (harg6 : arg6.IsWhole) (arg7 : Memref sig .tc .vmem S128x1 .f32) (harg7 : arg7.IsWhole) (arg8 : Memref sig .tc .vmem S128x256 .f32) (harg8 : arg8.IsWhole) (hc0 : ¬cond0_0 i) (hc1 : cond0_1 i) (x0 : Vec F S128x6016 .f32) (x1 : Vec F S256x6016 .f32) (x2 : Vec F S1x256 .f32) (x3 : Vec F S256 .f32) (x4 : Vec F S1 .f32) (xs0 : Vec F S128x256 .f32) :
    sout0_C_0 c i arg2 harg2 arg3 harg3 arg4 harg4 arg5 harg5 arg6 harg6 arg7 harg7 arg8 harg8 hc0 hc1 x0 x1 x2 x3 x4 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S128x256) hz2]
  simp only [View.readAt_eq_ld, harg2.read_unread, harg3.read_unread, harg8.read_unread,
    View.ld_unit_zero (S := S128x6016) hz2, View.ld_unit_zero (S := S256x6016) hz2,
    View.ld_unit_zero (S := S128x256) hz2]
/-- The last point of the reduction axis, the output block: the epilogue reloads the accumulator just stored —
    a whole-buffer read of one covering store, hence that store's payload — and its one covering store into the
    output leaves the epilogue's payload of it and of the bias, weight and offset blocks, each read whole. -/
theorem out_C (c : Dev nD) (i : grid0.Coords) (arg2 : Memref sig .tc .vmem S128x6016 .f32) (harg2 : arg2.IsWhole) (arg3 : Memref sig .tc .vmem S256x6016 .f32) (harg3 : arg3.IsWhole) (arg4 : Memref sig .tc .vmem S1x256 .f32) (harg4 : arg4.IsWhole) (arg5 : Memref sig .tc .vmem S256 .f32) (harg5 : arg5.IsWhole) (arg6 : Memref sig .tc .vmem S1 .f32) (harg6 : arg6.IsWhole) (arg7 : Memref sig .tc .vmem S128x1 .f32) (harg7 : arg7.IsWhole) (arg8 : Memref sig .tc .vmem S128x256 .f32) (harg8 : arg8.IsWhole) (hc0 : ¬cond0_0 i) (hc1 : cond0_1 i) (x0 : Vec F S128x6016 .f32) (x1 : Vec F S256x6016 .f32) (x2 : Vec F S1x256 .f32) (x3 : Vec F S256 .f32) (x4 : Vec F S1 .f32) (xs0 : Vec F S128x256 .f32) :
    out0_C_5 c i arg2 harg2 arg3 harg3 arg4 harg4 arg5 harg5 arg6 harg6 arg7 harg7 arg8 harg8 hc0 hc1 x0 x1 x2 x3 x4 xs0 = k0_pay3 (k0_pay2 x0 x1 xs0) x3 x2 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S128x1) hz2, View.readCov_unit_zero (S := S128x256) _ hz2]
  simp only [View.readAt_eq_ld, harg2.read_unread, harg3.read_unread, harg4.read_unread, harg5.read_unread,
    harg6.read_unread, harg8.read_unread,
    View.ld_unit_zero (S := S128x6016) hz2, View.ld_unit_zero (S := S256x6016) hz2,
    View.ld_unit_zero (S := S128x256) hz2, View.ld_unit_zero (S := S1x256) hz2,
    View.ld_unit_zero (S := S256) hz1, View.ld_unit_zero (S := S1) hz1]

end Cert.KernelIdeal.Pieces

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.HeadSpec.lean ====
/-
  The dense head as one function of its arrays, and the law that joins the two arrangements of its first contraction.

  For a row `b` the head is  Σ_h ( (Σ_k gene(b,k) · W1(h,k)) + b1(h) ) · W2(h)  +  b2,  over the extended reals.
  One arrangement contracts over all 18000 columns at once. The other extends both arrays by zero columns up to
  18048 = 3 · 6016, cuts the columns into three blocks of 6016 and adds the three block products one after the other.
  An extended entry is 0 and 0 · 0 = 0, so the 48 extra terms add nothing; and a sum over 3 · 6016 numbers is the double
  sum over blocks and positions. Nothing here needs an entry to be finite: only that addition of extended reals is
  commutative and associative with 0 neutral.
-/
import Mathlib.Data.EReal.Basic
import Mathlib.Algebra.BigOperators.Fin
import proofs.«177045_j79053168050211_2_alg».proof.Proof.LibBlockSum

open scoped BigOperators

noncomputable section

namespace Cert.Head

/-- A 256 × 18000 array read at natural-number coordinates: its entry inside, 0 outside. -/
def ext (x : Fin 256 → Fin 18000 → EReal) (r k : ℕ) : EReal :=
  if h : r < 256 ∧ k < 18000 then x ⟨r, h.1⟩ ⟨k, h.2⟩ else 0

theorem ext_of_lt (x : Fin 256 → Fin 18000 → EReal) (r : Fin 256) (k : ℕ) (hk : k < 18000) :
    ext x r.val k = x r ⟨k, hk⟩ := by
  unfold ext
  rw [dif_pos ⟨r.isLt, hk⟩]

theorem ext_of_ge (x : Fin 256 → Fin 18000 → EReal) (r k : ℕ) (hk : 18000 ≤ k) : ext x r k = 0 := by
  unfold ext
  rw [dif_neg (fun h => absurd h.2 (Nat.not_lt.2 hk))]

/-- Block `g` of the contraction of row `r` of the first array with row `q` of the second: columns 6016·g … 6016·g + 6015. -/
def blockDot (gp wp : ℕ → ℕ → EReal) (g r q : ℕ) : EReal :=
  ∑ k : Fin 6016, gp r (6016 * g + k.val) * wp q (6016 * g + k.val)

/-- The first `n` blocks added up. -/
def accum (gp wp : ℕ → ℕ → EReal) (n r q : ℕ) : EReal := ∑ g ∈ Finset.range n, blockDot gp wp g r q

theorem accum_zero (gp wp : ℕ → ℕ → EReal) (r q : ℕ) : accum gp wp 0 r q = 0 := Finset.sum_range_zero _

theorem accum_succ (gp wp : ℕ → ℕ → EReal) (n r q : ℕ) :
    accum gp wp (n + 1) r q = accum gp wp n r q + blockDot gp wp n r q := Finset.sum_range_succ _ _

/-- The head at row `b`. -/
def head (gene W1 : Fin 256 → Fin 18000 → EReal) (b1 W2 : Fin 256 → EReal) (b2 : EReal) (b : Fin 256) : EReal :=
  (∑ h : Fin 256, ((∑ k : Fin 18000, gene b k * W1 h k) + b1 h) * W2 h) + b2

/-- Three blocks of the zero-extended arrays are the whole contraction. -/
theorem accum_three (gene W1 : Fin 256 → Fin 18000 → EReal) (r q : Fin 256) :
    accum (ext gene) (ext W1) 3 r.val q.val = ∑ k : Fin 18000, gene r k * W1 q k := by
  unfold accum blockDot
  rw [Finset.sum_range (fun g => ∑ k : Fin 6016, ext gene r.val (6016 * g + k.val) * ext W1 q.val (6016 * g + k.val))]
  have hb := Cert.BlockSum.sum_fin_blocks (A := 3) (B := 6016) (N := 18048) (by norm_num)
    (fun j : Fin 18048 => ext gene r.val j.val * ext W1 q.val j.val)
  rw [← hb]
  have hs : (18048 : ℕ) = 18000 + 48 := by norm_num
  rw [← Fin.sum_congr' (fun j : Fin (18000 + 48) => ext gene r.val j.val * ext W1 q.val j.val) hs.symm]
  rw [Fin.sum_univ_add]
  simp only [Fin.coe_cast, Fin.coe_castAdd, Fin.coe_natAdd]
  have htail : ∑ j : Fin 48, ext gene r.val (18000 + j.val) * ext W1 q.val (18000 + j.val) = 0 := by
    refine Finset.sum_eq_zero fun j _ => ?_
    rw [ext_of_ge gene _ _ (Nat.le_add_right _ _), zero_mul]
  rw [htail, add_zero]
  refine Finset.sum_congr rfl fun k _ => ?_
  rw [ext_of_lt gene r _ k.isLt, ext_of_lt W1 q _ k.isLt]

end Cert.Head

end
-- ==== Proof.Prelude.lean ====
/-
  What the blocks entering the grid hold at grid point t, over the extended reals.

  Before the grid runs, the host computes the sparse layer gene[256,18000] and appends 48 columns holding the
  converted integer 0, which is 0, to gene and to W1: two arrays of 256 × 18048 = 256 × (3 · 6016). Point t of the
  2 × 3 grid has coordinates (t / 3, t % 3). Its first block is rows 128·(t/3) … 128·(t/3) + 127 and columns
  6016·(t%3) … 6016·(t%3) + 6015 of the first array; its second block is all 256 rows and the same columns of the
  second; the other three blocks are all of W2, b1 and b2 at every point. An entry of an extended array is the
  array's own entry in the first 18000 columns and 0 in the 48 appended ones.
-/
import proofs.«177045_j79053168050211_2_alg».proof.Proof.Gen.KernelIdeal.Frame
import proofs.«177045_j79053168050211_2_alg».proof.Proof.Gen.ReferenceIdeal.Read
import proofs.«177045_j79053168050211_2_alg».proof.Proof.HeadSpec
import Idealize.ShloMosaic.Lib.Pipeline.Value
import Idealize.ShloMosaic.Lib.ValueIdx
import Idealize.ShloMosaic.Lib.KernelVsHost
import Idealize.ShloMosaic.Lib.StableHlo.Run
noncomputable section
namespace Cert.KernelIdeal.Prelude
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-- The sparse layer's value: the reference's stage main_v20 of the kernel program's own launch arrays. -/
def gene (c : Dev nD) (r : Fin 256) (k : Fin 18000) : EReal :=
  Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r k)
/-- W1 as a function of its two coordinates. -/
def w1 (c : Dev nD) (r : Fin 256) (k : Fin 18000) : EReal := m ((c : Thread nD τ).loc main_arg5) (ix2 r k)

/-- The value written around the two arrays: the integer 0 converted, which is 0. -/
theorem padv_apply (i : S_.Idx) : (sitofp .f32 (constantI S_ 32 0#32) : FVec Ideal S_ .f32) i = 0 := by
  show (((0#32 : BitVec 32).toInt : ℝ) : EReal) = 0
  simp

/-- W1 with 48 zero columns appended, as the region finds it. -/
theorem V_main_v22 (c : Dev nD) :
    (V m c main_v22 : Vec Ideal S256x18048 .f32) =
      pad S256x18048 ![0, 0] ![0, 48] ![0, 0] (m ((c : Thread nD τ).loc main_arg5) : Vec Ideal S256x18000 .f32)
        (sitofp .f32 (constantI S_ 32 0#32) : FVec Ideal S_ .f32) pads_S256x18000_S256x18048_000_0480 h_S_ := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Running two stretches of operations one after the other is running their concatenation. -/
theorem after_append (l₁ l₂ : List (HloOp τ sig (Elt Ideal))) (G : Valuation τ sig (Elt Ideal)) :
    StableHlo.after (l₁ ++ l₂) G = StableHlo.after l₂ (StableHlo.after l₁ G) := by
  induction l₁ generalizing G with
  | nil => rfl
  | cons op ops ih => exact ih (op.result G)

/-- The sparse layer as the kernel program computes it on the host is, operation for operation, the reference's:
    the same gather, product, scatter-add and bias sum of the same five arrays. -/
theorem host_v20 (c : Dev nD) :
    (StableHlo.after (hostOps0 (F := Ideal)) (fun b => m (c, b)) (Proc.devRef .tc main_v20) : Vec Ideal S256x18000 .f32) =
        (Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : Vec Ideal S256x18000 .f32) := by
  simp only [Gen.hostOps0]
  after_results_simp
  unfold Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_c_1 Cert.ReferenceIdeal.Read.val_main_c_2 Cert.ReferenceIdeal.Read.val_main_cst
  rfl

/-- The last operation of the first stretch: the integer constant 0 that becomes the padding value. -/
theorem host_c3 (c : Dev nD) :
    (StableHlo.after (hostOps0 (F := Ideal)) (fun b => m (c, b)) (Proc.devRef .tc main_c_3) : IVec S_ 32) = constantI S_ 32 0#32 := by
  simp only [Gen.hostOps0]
  after_results_simp

/-- The five operations after the sparse layer, from any contents G: the first padded array is G's main_v20 with
    48 columns of G's converted main_c_3 appended. -/
theorem tail_v21 (G : Valuation τ sig (Elt Ideal)) :
    (StableHlo.after ((hostOps0_1 (F := Ideal)) ++ ((hostOps0_2 (F := Ideal)) ++ ((hostOps0_3 (F := Ideal)) ++ []))) G (Proc.devRef .tc main_v21) : Vec Ideal S256x18048 .f32) =
      pad S256x18048 ![0, 0] ![0, 48] ![0, 0] (G (Proc.devRef .tc main_v20) : Vec Ideal S256x18000 .f32)
        (sitofp .f32 (G (Proc.devRef .tc main_c_3) : IVec S_ 32) : FVec Ideal S_ .f32) pads_S256x18000_S256x18048_000_0480 h_S_ := by
  simp only [Gen.hostOps0_1, Gen.hostOps0_2, Gen.hostOps0_3, List.append_nil, List.cons_append, List.nil_append]
  after_results
  rfl

/-- The sparse layer's value with 48 zero columns appended, as the region finds it. -/
theorem V_main_v21 (c : Dev nD) :
    (V m c main_v21 : Vec Ideal S256x18048 .f32) =
      pad S256x18048 ![0, 0] ![0, 48] ![0, 0]
        (Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : Vec Ideal S256x18000 .f32)
        (sitofp .f32 (constantI S_ 32 0#32) : FVec Ideal S_ .f32) pads_S256x18000_S256x18048_000_0480 h_S_ := by
  have hl : List.flatten [hostOps0 (F := Ideal), hostOps0_1, hostOps0_2, hostOps0_3]
      = hostOps0 ++ (hostOps0_1 ++ (hostOps0_2 ++ (hostOps0_3 ++ []))) := rfl
  show StableHlo.after (List.flatten [hostOps0 (F := Ideal), hostOps0_1, hostOps0_2, hostOps0_3]) (fun b => m (c, b)) (Proc.devRef .tc main_v21) = _
  rw [hl, after_append, tail_v21, host_v20, host_c3]

/-- The block index of every input window at every grid point: point t has coordinates (t / 3, t % 3). -/
theorem hidx : ∀ t : Fin cfg0.N,
    win0_0.index t (0 : Fin 2) = t.val / 3 ∧ win0_0.index t (1 : Fin 2) = t.val % 3
    ∧ win0_1.index t (0 : Fin 2) = 0 ∧ win0_1.index t (1 : Fin 2) = t.val % 3
    ∧ win0_2.index t (0 : Fin 2) = 0 ∧ win0_2.index t (1 : Fin 2) = 0
    ∧ win0_3.index t (0 : Fin 1) = 0 ∧ win0_4.index t (0 : Fin 1) = 0 :=
  (by decide +kernel : ∀ t : Fin grid0.N, _)

/-- Block (t / 3, t % 3) of the first padded array: rows 128·(t/3) + p, columns 6016·(t%3) + k. -/
theorem iblk0_V (c : Dev nD) (t : Fin cfg0.N) (p : Fin 128) (k : Fin 6016)
    (hr : 128 * (t.val / 3) + p.val < 256) (hk : 6016 * (t.val % 3) + k.val < 18048) :
    (iblk m c 0 t : Vec Ideal S128x6016 .f32) (ix2 p k)
      = (V m c main_v21 : Vec Ideal S256x18048 .f32) (ix2 ⟨128 * (t.val / 3) + p.val, hr⟩ ⟨6016 * (t.val % 3) + k.val, hk⟩) := by
  have hi := hidx t
  unfold iblk
  rw [View.read_apply]
  show V m c main_v21 _ = _
  congr 1
  funext a
  apply Fin.ext
  match a with
  | ⟨0, _⟩ => show win0_0.index t 0 * 128 + 1 * p.val = 128 * (t.val / 3) + p.val; rw [hi.1]; omega
  | ⟨1, _⟩ => show win0_0.index t 1 * 6016 + 1 * k.val = 6016 * (t.val % 3) + k.val; rw [hi.2.1]; omega

/-- Block (0, t % 3) of the second padded array: all 256 rows, columns 6016·(t%3) + k. -/
theorem iblk1_V (c : Dev nD) (t : Fin cfg0.N) (q : Fin 256) (k : Fin 6016)
    (hk : 6016 * (t.val % 3) + k.val < 18048) :
    (iblk m c 1 t : Vec Ideal S256x6016 .f32) (ix2 q k)
      = (V m c main_v22 : Vec Ideal S256x18048 .f32) (ix2 q ⟨6016 * (t.val % 3) + k.val, hk⟩) := by
  have hi := hidx t
  unfold iblk
  rw [View.read_apply]
  show V m c main_v22 _ = _
  congr 1
  funext a
  apply Fin.ext
  match a with
  | ⟨0, _⟩ => show win0_1.index t 0 * 256 + 1 * q.val = q.val; rw [hi.2.2.1]; omega
  | ⟨1, _⟩ => show win0_1.index t 1 * 6016 + 1 * k.val = 6016 * (t.val % 3) + k.val; rw [hi.2.2.2.1]; omega

/-- The third window's block is all of W2 at every point. -/
theorem iblk2_apply (c : Dev nD) (t : Fin cfg0.N) (u : Fin 1) (h : Fin 256) :
    (iblk m c 2 t : Vec Ideal S1x256 .f32) (ix2 u h) = m ((c : Thread nD τ).loc main_arg7) (ix2 u h) := by
  have hi := hidx t
  unfold iblk
  rw [View.read_apply]
  show V m c main_arg7 _ = _
  rw [V_main_arg7]
  congr 1
  funext a
  apply Fin.ext
  match a with
  | ⟨0, _⟩ => show win0_2.index t 0 * 1 + 1 * u.val = u.val; rw [hi.2.2.2.2.1]; omega
  | ⟨1, _⟩ => show win0_2.index t 1 * 256 + 1 * h.val = h.val; rw [hi.2.2.2.2.2.1]; omega

/-- The fourth window's block is all of b1 at every point. -/
theorem iblk3_apply (c : Dev nD) (t : Fin cfg0.N) (h : Fin 256) :
    (iblk m c 3 t : Vec Ideal S256 .f32) (ix1 h) = m ((c : Thread nD τ).loc main_arg6) (ix1 h) := by
  have hi := hidx t
  unfold iblk
  rw [View.read_apply]
  show V m c main_arg6 _ = _
  rw [V_main_arg6]
  congr 1
  funext a
  apply Fin.ext
  match a with
  | ⟨0, _⟩ => show win0_3.index t 0 * 256 + 1 * h.val = h.val; rw [hi.2.2.2.2.2.2.1]; omega

/-- The fifth window's block is all of b2 at every point. -/
theorem iblk4_apply (c : Dev nD) (t : Fin cfg0.N) (u : Fin 1) :
    (iblk m c 4 t : Vec Ideal S1 .f32) (ix1 u) = m ((c : Thread nD τ).loc main_arg8) (ix1 u) := by
  have hi := hidx t
  unfold iblk
  rw [View.read_apply]
  show V m c main_arg8 _ = _
  rw [V_main_arg8]
  congr 1
  funext a
  apply Fin.ext
  match a with
  | ⟨0, _⟩ => show win0_4.index t 0 * 1 + 1 * u.val = u.val; rw [hi.2.2.2.2.2.2.2]; omega

/-- A padded array read at (r, k): the array's entry when k < 18000, the padding value 0 in the 48 appended columns. -/
theorem pad_read (x : Vec Ideal S256x18000 .f32) (r : Fin 256) (k : ℕ) (hk : k < 18048) :
    pad S256x18048 ![0, 0] ![0, 48] ![0, 0] x (sitofp .f32 (constantI S_ 32 0#32) : FVec Ideal S_ .f32)
        pads_S256x18000_S256x18048_000_0480 h_S_ (ix2 r ⟨k, hk⟩)
      = Cert.Head.ext (fun a b => x (ix2 a b)) r.val k := by
  by_cases hlt : k < 18000
  · rw [Cert.Head.ext_of_lt _ r k hlt]
    exact pad_apply_of_inside _ _ _ x _ _ _ (ix2 r ⟨k, hk⟩) (ix2 r ⟨k, hlt⟩) (fun a => by
      match a with
      | ⟨0, _⟩ => show r.val = 0 + r.val * (0 + 1); omega
      | ⟨1, _⟩ => show k = 0 + k * (0 + 1); omega)
  · rw [Cert.Head.ext_of_ge _ _ _ (Nat.le_of_not_lt hlt)]
    rw [pad_apply_of_not_inside _ _ _ x _ _ _ (ix2 r ⟨k, hk⟩) (1 : Fin 2) (fun h => by
      have h3 : (k - 0) / (0 + 1) < 18000 := h.2.2
      rw [Nat.sub_zero, Nat.zero_add, Nat.div_one] at h3
      exact hlt h3)]
    exact padv_apply _

theorem iblk0_apply (c : Dev nD) (t : Fin cfg0.N) (p : Fin 128) (k : Fin 6016) :
    (iblk m c 0 t : Vec Ideal S128x6016 .f32) (ix2 p k) = Cert.Head.ext (gene m c) (128 * (t.val / 3) + p.val) (6016 * (t.val % 3) + k.val) := by
  have hN : cfg0.N = 6 := N_0
  have ht : t.val < 6 := hN ▸ t.isLt
  have hr : 128 * (t.val / 3) + p.val < 256 := by have := p.isLt; omega
  have hk : 6016 * (t.val % 3) + k.val < 18048 := by have := k.isLt; omega
  rw [iblk0_V m c t p k hr hk, V_main_v21]
  exact pad_read _ ⟨128 * (t.val / 3) + p.val, hr⟩ _ hk

theorem iblk1_apply (c : Dev nD) (t : Fin cfg0.N) (q : Fin 256) (k : Fin 6016) :
    (iblk m c 1 t : Vec Ideal S256x6016 .f32) (ix2 q k) = Cert.Head.ext (w1 m c) q.val (6016 * (t.val % 3) + k.val) := by
  have hk : 6016 * (t.val % 3) + k.val < 18048 := by have := k.isLt; omega
  rw [iblk1_V m c t q k hk, V_main_v22]
  exact pad_read _ q _ hk

end Cert.KernelIdeal.Prelude

end
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.BodyValue.lean ====
/-
  The body's three stored values, read at an index on the extended reals.

  The reset stores the zero block. The accumulation step stores, at (p, q), what the scratch held there plus the
  contraction over the block's 6016 columns of row p of the first block with row q of the second (both blocks are
  contracted on their LAST axis; a change of float format is the identity; the product is taken into a zero accumulator,
  and 0 + x = x). The last step stores, at row p, the sum over the 256 hidden units of (acc(p, h) + b1(h)) · W2(h), plus
  b2: the bias row and the weight row are each one row copied down the 128 rows, the lane sum starts from the neutral
  element, and its result, a vector of 128 numbers, is stood up as a column.
-/
import proofs.«177045_j79053168050211_2_alg».proof.Proof.Gen.KernelIdeal.Skeleton
import proofs.«177045_j79053168050211_2_alg».proof.Proof.LibMatmulNT
import proofs.«177045_j79053168050211_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.BodyValue

open Cert.KernelIdeal Cert.KernelIdeal.Gen Idealize.ShloMosaic Idealize.ShloMosaic.ValueIdx

/-- The body's contraction record is the one that contracts the last axis of both operands. -/
theorem dot_eq : dot_S128x6016_S256x6016_S128x256_1_1_0_0_n_n = DotDims.transposedRhs 128 6016 256 := rfl

/-- The reset's block is zero everywhere. -/
theorem pay1_apply (j : S128x256.Idx) : k0_pay1 (F := Ideal) j = 0 := by
  unfold k0_pay1
  simp only [shapeCast_self]
  show Ideal.ofBits .f32 0x00000000#32 = 0
  exact Ideal.ofBits_zero_f32

/-- The accumulation step at (p, q): the old entry plus the block's contraction. -/
theorem pay2_apply (v3 : Vec Ideal S128x6016 .f32) (v6 : Vec Ideal S256x6016 .f32) (v10 : Vec Ideal S128x256 .f32)
    (p : Fin 128) (q : Fin 256) :
    k0_pay2 (F := Ideal) v3 v6 v10 (ix2 p q) = v10 (ix2 p q) + ∑ k : Fin 6016, v3 (ix2 p k) * v6 (ix2 q k) := by
  unfold k0_pay2
  simp only [shapeCast_self]
  rw [addf_apply]
  refine congrArg (v10 (ix2 p q) + ·) ?_
  rw [dot_eq]
  exact Cert.MatOpsNT.matmul_nt_zero_apply none _ _ p q

/-- The lane sum of a [128, 256] block from the neutral element, at row p: the sum over the 256 lanes. -/
theorem rowsum_apply (x : FVec Ideal S128x256 .f32) (h : S128x256.Reduces [1] S128) (hφ : FKind.Formats FTy.f32)
    (hacc : (0x00000000#32 : BitVec 32) = 0x00000000#32) (p : Fin 128) :
    multiReduction (F := Ideal) .add [1] S128 x 0x00000000#32 h hφ hacc (ix1 p) = ∑ l : Fin 256, x (ix2 p l) := by
  refine (Ideal.multiReduction_add_single x 0x00000000#32 h hφ hacc (ix1 p)).trans ?_
  refine Finset.sum_congr rfl fun l _ => congrArg x ?_
  funext a
  refine Fin.ext ?_
  match a with
  | ⟨0, _⟩ => rfl
  | ⟨1, _⟩ => rfl

/-- The last step at row p: Σ_h (acc(p, h) + b1(h)) · W2(h), plus b2. -/
theorem pay3_apply (v18 : Vec Ideal S128x256 .f32) (v19 : Vec Ideal S256 .f32) (v23 : Vec Ideal S1x256 .f32)
    (v28 : Vec Ideal S1 .f32) (p : Fin 128) (u : Fin 1) :
    k0_pay3 (F := Ideal) v18 v19 v23 v28 (ix2 p u)
      = (∑ h : Fin 256, (v18 (ix2 p h) + v19 (ix1 h)) * v23 (ix2 (0 : Fin 1) h)) + v28 (ix1 (0 : Fin 1)) := by
  unfold k0_pay3
  rw [addf_apply]
  refine congrArg₂ (· + ·) ?_ ?_
  · refine (Idealize.ShloMosaic.Keepdims.shapeCast_a_a1_apply _ shapeCasts_S128_S128x1 p u).trans ?_
    refine (rowsum_apply _ reduces_S128x256_S128 (.inl rfl) rfl p).trans ?_
    refine Finset.sum_congr rfl fun h _ => ?_
    rw [mulf_apply, addf_apply]
    refine congrArg₂ (· * ·) (congrArg (v18 (ix2 p h) + ·) ?_) ?_
    · refine (broadcastTo_1b_ab_apply _ broadcasts_S1x256_S128x256 p h).trans ?_
      exact shapeCast_a_1a_apply v19 shapeCasts_S256_S1x256 (0 : Fin 1) h
    · exact broadcastTo_1b_ab_apply v23 broadcasts_S1x256_S128x256 p h
  · refine (broadcastTo_1b_ab_apply _ broadcasts_S1x1_S128x1 p u).trans ?_
    have hu : u = (0 : Fin 1) := Subsingleton.elim _ _
    subst hu
    exact shapeCast_a_1a_apply v28 shapeCasts_S1_S1x1 (0 : Fin 1) (0 : Fin 1)

end Cert.KernelIdeal.BodyValue

end
-- ==== Proof.Accum.lean ====
/-
  What the carried scratch and the output's staging buffer hold after each grid point.

  Point t has coordinates (t / 3, t % 3): row block t / 3 of the padded sparse-layer output, column block t % 3. After
  point t the scratch holds, at (p, q), the sum of the first t % 3 + 1 block contractions of row 128·(t/3) + p of the
  zero-extended sparse-layer output with row q of the zero-extended first weight matrix: the first column block starts
  from the zero block (0 + x), each later one adds its contraction to what the point before left. At a point with
  t % 3 = 2 all three blocks are in, which is the whole contraction over the 18000 columns, and the output's buffer
  holds the head of row 128·(t/3) + p.
-/
import proofs.«177045_j79053168050211_2_alg».proof.Proof.Gen.KernelIdeal.Frame
import proofs.«177045_j79053168050211_2_alg».proof.Proof.Pieces
import proofs.«177045_j79053168050211_2_alg».proof.Proof.Prelude
import proofs.«177045_j79053168050211_2_alg».proof.Proof.BodyValue
import proofs.«177045_j79053168050211_2_alg».proof.Proof.HeadSpec

open scoped BigOperators

noncomputable section

namespace Cert.KernelIdeal.Accum

open Cert.KernelIdeal Cert.KernelIdeal.Gen Idealize.ShloMosaic Idealize.ShloMosaic.TcCoe Idealize.SL.Sem
open Idealize.ShloMosaic.ValueIdx
open Cert.KernelIdeal.Prelude (gene w1)

/-- One accumulation step at (p, q): the old entry plus the block product, once each entry of the two blocks is known
    as an entry of the zero-extended arrays. -/
theorem step_apply (x0 : Vec Ideal S128x6016 .f32) (x1 : Vec Ideal S256x6016 .f32) (acc : Vec Ideal S128x256 .f32)
    (gp wp : ℕ → ℕ → EReal) (g r : ℕ) (p : Fin 128) (q : Fin 256)
    (h0 : ∀ k : Fin 6016, x0 (ix2 p k) = gp r (6016 * g + k.val))
    (h1 : ∀ k : Fin 6016, x1 (ix2 q k) = wp q.val (6016 * g + k.val)) :
    k0_pay2 (F := Ideal) x0 x1 acc (ix2 p q) = acc (ix2 p q) + Cert.Head.blockDot gp wp g r q.val := by
  rw [BodyValue.pay2_apply]
  unfold Cert.Head.blockDot
  refine congrArg (acc (ix2 p q) + ·) (Finset.sum_congr rfl fun k _ => ?_)
  rw [h0 k, h1 k]

/-- The last step at row p, once the scratch holds all three block products of row r: the head of row r. -/
theorem last_apply (acc : Vec Ideal S128x256 .f32) (x3 : Vec Ideal S256 .f32) (x2 : Vec Ideal S1x256 .f32)
    (x4 : Vec Ideal S1 .f32) (gn wt : Fin 256 → Fin 18000 → EReal) (b1 W2 : Fin 256 → EReal) (b2 : EReal)
    (r : Fin 256) (p : Fin 128) (u : Fin 1)
    (hacc : ∀ h : Fin 256, acc (ix2 p h) = Cert.Head.accum (Cert.Head.ext gn) (Cert.Head.ext wt) 3 r.val h.val)
    (h3 : ∀ h : Fin 256, x3 (ix1 h) = b1 h) (h2 : ∀ h : Fin 256, x2 (ix2 (0 : Fin 1) h) = W2 h)
    (h4 : x4 (ix1 (0 : Fin 1)) = b2) :
    k0_pay3 (F := Ideal) acc x3 x2 x4 (ix2 p u) = Cert.Head.head gn wt b1 W2 b2 r := by
  rw [BodyValue.pay3_apply]
  unfold Cert.Head.head
  refine congrArg₂ (· + ·) (Finset.sum_congr rfl fun h _ => ?_) h4
  rw [hacc h, h3 h, h2 h, Cert.Head.accum_three]

variable (m : (ℓ : Loc nD τ sig) → Buf (Elt Ideal) ℓ)

/-- The scratch after point t: the first t % 3 + 1 block products of its row block. -/
theorem scratch_eq (c : Dev nD) : ∀ (n : ℕ) (t : Fin cfg0.N), t.val = n → ∀ (p : Fin 128) (q : Fin 256),
    ((outsAt0 m c t.val t.isLt).2 : Vec Ideal S128x256 .f32) (ix2 p q)
      = Cert.Head.accum (Cert.Head.ext (gene m c)) (Cert.Head.ext (w1 m c)) (t.val % 3 + 1) (128 * (t.val / 3) + p.val) q.val := by
  intro n
  induction n using Nat.strong_induction_on with
  | _ n ih =>
    intro t ht p q
    have hN : cfg0.N = 6 := N_0
    have htN : t.val < 6 := lt_of_lt_of_eq t.isLt hN
    have hb0 := fun k : Fin 6016 => Prelude.iblk0_apply m c t p k
    have hb1 := fun k : Fin 6016 => Prelude.iblk1_apply m c t q k
    by_cases h0 : t.val % 3 = 0
    · have h1 : ¬t.val % 3 = 2 := by omega
      have e2 : (outsAt0 m c t.val t.isLt).2 = k0_pay2 (iblk m c 0 t) (iblk m c 1 t) (k0_pay1 (F := Ideal)) := by
        rw [outsAt0_A m c t h0 h1]
        dsimp only
        exact Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
      rw [e2]
      refine (step_apply (iblk m c 0 t) (iblk m c 1 t) (k0_pay1 (F := Ideal)) _ _ (t.val % 3) (128 * (t.val / 3) + p.val) p q hb0 hb1).trans ?_
      rw [BodyValue.pay1_apply, h0, Cert.Head.accum_succ, Cert.Head.accum_zero]
    · have hlt : t.val - 1 < cfg0.N := Nat.lt_of_le_of_lt (Nat.sub_le _ _) t.isLt
      have ihp := ih (t.val - 1) (by omega) ⟨t.val - 1, hlt⟩ rfl p q
      dsimp only at ihp
      rw [show (t.val - 1) % 3 + 1 = t.val % 3 by omega, show (t.val - 1) / 3 = t.val / 3 by omega] at ihp
      obtain ⟨prev, hprev⟩ : ∃ prev : Vec Ideal S128x256 .f32, (outsAt0 m c (t.val - 1) hlt).2 = prev := ⟨_, rfl⟩
      rw [hprev] at ihp
      have e2 : (outsAt0 m c t.val t.isLt).2 = k0_pay2 (iblk m c 0 t) (iblk m c 1 t) prev := by
        by_cases h1 : t.val % 3 = 2
        · have e := outsAt0_C m c t h0 h1
          rw [hprev] at e
          rw [e]
          dsimp only
          exact Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) prev
        · have e := outsAt0_B m c t h0 h1
          rw [hprev] at e
          rw [e]
          dsimp only
          exact Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) prev
      rw [e2]
      refine (step_apply (iblk m c 0 t) (iblk m c 1 t) prev _ _ (t.val % 3) (128 * (t.val / 3) + p.val) p q hb0 hb1).trans ?_
      rw [ihp]
      exact (Cert.Head.accum_succ _ _ _ _ _).symm

/-- Row 128·(t/3) + p of the whole array. -/
abbrev rowOf (t : Fin cfg0.N) (p : Fin 128) : Fin 256 :=
  ⟨128 * (t.val / 3) + p.val, by have := lt_of_lt_of_eq t.isLt (show cfg0.N = 6 from N_0); have := p.isLt; omega⟩

/-- The head of one row, from the launch arrays. -/
def headRow (c : Dev nD) (b : Fin 256) : EReal :=
  Cert.Head.head (gene m c) (w1 m c) (fun h => m ((c : Thread nD τ).loc main_arg6) (ix1 h))
    (fun h => m ((c : Thread nD τ).loc main_arg7) (ix2 (0 : Fin 1) h)) (m ((c : Thread nD τ).loc main_arg8) (ix1 (0 : Fin 1))) b

/-- At a point that finishes a row block, the output's buffer holds the head of each of its rows. -/
theorem out_eq (c : Dev nD) (t : Fin cfg0.N) (h1 : t.val % 3 = 2) (p : Fin 128) (u : Fin 1) :
    ((outsAt0 m c t.val t.isLt).1 : Vec Ideal S128x1 .f32) (ix2 p u) = headRow m c (rowOf t p) := by
  have h0 : ¬t.val % 3 = 0 := by omega
  have hlt : t.val - 1 < cfg0.N := Nat.lt_of_le_of_lt (Nat.sub_le _ _) t.isLt
  obtain ⟨prev, hprev⟩ : ∃ prev : Vec Ideal S128x256 .f32, (outsAt0 m c (t.val - 1) hlt).2 = prev := ⟨_, rfl⟩
  have e := outsAt0_C m c t h0 h1
  rw [hprev] at e
  have e2 : (outsAt0 m c t.val t.isLt).2 = k0_pay2 (iblk m c 0 t) (iblk m c 1 t) prev := by
    rw [e]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) prev
  have e1 : (outsAt0 m c t.val t.isLt).1
      = k0_pay3 (k0_pay2 (iblk m c 0 t) (iblk m c 1 t) prev) (iblk m c 3 t) (iblk m c 2 t) (iblk m c 4 t) := by
    rw [e]
    dsimp only
    exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) prev
  rw [← e2] at e1
  rw [e1]
  unfold headRow
  refine last_apply (outsAt0 m c t.val t.isLt).2 (iblk m c 3 t) (iblk m c 2 t) (iblk m c 4 t) (gene m c) (w1 m c) _ _ _
    (rowOf t p) p u (fun h => ?_) (fun h => Prelude.iblk3_apply m c t h) (fun h => Prelude.iblk2_apply m c t (0 : Fin 1) h)
    (Prelude.iblk4_apply m c t (0 : Fin 1))
  rw [scratch_eq m c t.val t rfl p h, h1]

end Cert.KernelIdeal.Accum

end
-- ==== Proof.Final.lean ====
/-
  The kernel's result array, and its run.

  The output column has 256 rows in two blocks of 128; block t / 3 is written back once, at the point with t % 3 = 2,
  when the three column blocks of its rows have been added up, and what is written back at row p of the block is the
  head of row 128·(t/3) + p. Every row lies in exactly one such block (row r in block r / 128, written back at point
  3·(r/128) + 2), so after the region the column holds the head of row r at (r, 0). The host then lays the 256 × 1
  column out as 256 numbers: entry r is the head of row r.
-/
import proofs.«177045_j79053168050211_2_alg».proof.Proof.Gen.KernelIdeal.Frame
import proofs.«177045_j79053168050211_2_alg».proof.Proof.Accum
import Idealize.ShloMosaic.Lib.Pipeline.Value
import Idealize.ShloMosaic.Lib.ValueIdx
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Accum (headRow rowOf)

variable (m : (ℓ : Loc nD τ sig) → Buf (Elt Ideal) ℓ) (ρ : Dev nD → PrngReg)

/-- The output column as one function of the launch arrays: the head of row r at (r, 0). -/
def outCol (c : Dev nD) : S256x1.Idx → EReal := fun j => headRow m c ⟨(j 0).val, idx2_lt0 j⟩

/-- The output window's block index at point t is (t / 3, 0): decided over the six points. -/
theorem idx_facts5 : ∀ t : Fin cfg0.N, win0_5.index t (0 : Fin 2) = t.val / 3 ∧ win0_5.index t (1 : Fin 2) = 0 :=
  (by decide +kernel : ∀ t : Fin grid0.N, win0_5.index t (0 : Fin 2) = t.val / 3 ∧ win0_5.index t (1 : Fin 2) = 0)

/-- The column at (r, u) is the head of row r. -/
theorem outCol_apply (c : Dev nD) (r : Fin 256) (u : Fin 1) : outCol m c (ix2 r u) = headRow m c r := rfl

/-- A block of 128 rows whose row p is row 128·(t/3) + p of a column G is the block of G that point t writes back. -/
theorem block_eq (t : Fin cfg0.N) (X : Vec Ideal S128x1 .f32) (G : S256x1.Idx → EReal)
    (h : ∀ (p : Fin 128) (u : Fin 1) (hr : 128 * (t.val / 3) + p.val < 256),
      X (ix2 p u) = G (ix2 ⟨128 * (t.val / 3) + p.val, hr⟩ u)) :
    (cfg0.win 5).cut (grid0.coords t) X = ((cfg0.win 5).blk t).view.read (Elt Ideal) G := by
  funext j
  obtain ⟨p, u, rfl⟩ : ∃ (p : Fin 128) (u : Fin 1), j = ix2 p u := ⟨j 0, j 1, eq_ix2 j⟩
  have hN : t.val < 6 := lt_of_lt_of_eq t.isLt (show cfg0.N = 6 from N_0)
  have hr : 128 * (t.val / 3) + p.val < 256 := by have := p.isLt; omega
  show X (ix2 p u) = G (((cfg0.win 5).blk t).view.emb (ix2 p u))
  rw [h p u hr]
  refine congrArg G (funext fun a => Fin.ext ?_)
  match a with
  | ⟨0, _⟩ =>
    show 128 * (t.val / 3) + p.val = win0_5.index t (0 : Fin 2) * 128 + 1 * p.val
    rw [(idx_facts5 t).1]; omega
  | ⟨1, _⟩ =>
    show u.val = win0_5.index t (1 : Fin 2) * 1 + 1 * u.val
    rw [(idx_facts5 t).2]; omega

/-- What a point that finishes a row block writes back is that block of the column. -/
theorem flushed_eq (c : Dev nD) (t : Fin cfg0.N) (hf : (cfg0.win 5).flush t = true) :
    (dats m 0 c).flushed 5 t = ((cfg0.win 5).blk t).view.read (Elt Ideal) (outCol m c) := by
  have h1 : t.val % 3 = 2 := (flush0_5 t).mp hf
  show (cfg0.win 5).cut (grid0.coords t) ((dats m 0 c).after 5 t) = _
  rw [after0_5]
  exact block_eq t _ _ fun p u hr => (Accum.out_eq m c t h1 p u).trans (outCol_apply m c _ u).symm

/-- An index of the column is in point t's block iff each coordinate is in the block's range on its axis. -/
theorem mem_blk5 (t : Fin cfg0.N) (i : S256x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v23).slice (win0_5.rect t)).set ↔ _
  rw [View.set_slice_whole, Rect.mem_set_unit]
  exact Iff.rfl

/-- Every row is in the block of the point that finishes its row block. -/
theorem cover (i : S256x1.Idx) : ∃ t : Fin cfg0.N, (cfg0.win 5).flush t = true ∧ i ∈ ((cfg0.win 5).blk t).view.set := by
  have hi0 : (i 0).val < 256 := idx2_lt0 i
  have hi1 : (i 1).val < 1 := idx2_lt1 i
  have hN : cfg0.N = 6 := N_0
  let t : Fin cfg0.N := ⟨3 * ((i 0).val / 128) + 2, by rw [hN]; omega⟩
  have htv : t.val = 3 * ((i 0).val / 128) + 2 := rfl
  refine ⟨t, (flush0_5 t).mpr (by rw [htv]; omega), ?_⟩
  rw [mem_blk5]
  obtain ⟨e0, e1⟩ := idx_facts5 t
  intro a
  match a with
  | ⟨0, _⟩ =>
    show win0_5.index t (0 : Fin 2) * 128 ≤ (i 0).val ∧ (i 0).val < win0_5.index t (0 : Fin 2) * 128 + 128
    rw [e0, htv]; omega
  | ⟨1, _⟩ =>
    show win0_5.index t (1 : Fin 2) * 1 ≤ (i 1).val ∧ (i 1).val < win0_5.index t (1 : Fin 2) * 1 + 1
    rw [e1]; omega

/-- After the region the column holds the head of every row. -/
theorem final (c : Dev nD) : (dats m 0 c).arrAt 5 cfg0.N = outCol m c :=
  (dats m 0 c).arrAt_eq_of_cover 5 (outCol m c) (flushed_eq m c) cover

/-- The result: the column laid out as 256 numbers. -/
def result (c : Dev nD) : S256.Idx → EReal := shapeCast S256 (outCol m c) shapeCasts_S256x1_S256

/-- Entry b of the result is the head of row b. -/
theorem result_apply (c : Dev nD) (b : Fin 256) : result m c (ix1 b) = headRow m c b := by
  unfold result
  refine (shapeCast_apply (outCol m c) shapeCasts_S256x1_S256 (ix1 b) (ix2 b (0 : Fin 1)) ?_).trans ?_
  · rw [Shape.rowMajor_val_two, Shape.rowMajor_val_one]
    show b.val * 1 + 0 = b.val
    omega
  · rfl

/-- The host's reshape after the region reads the column the region left. -/
theorem tail_eq (c : Dev nD) :
    Pipeline.afterTail₀ cfgs (dats m) 0 (V0 m) [hostOps1] c main_v24 = result m c := by
  unfold Pipeline.afterTail₀
  show StableHlo.after hostOps1 _ (Proc.devRef .tc main_v24) = _
  after_results
  unfold result
  rw [(Pipeline.withArrays_arr spec0 launch0.win.arr_inj c _ _ 5).trans (final m c)]
  rfl

/-- The kernel's run, read: the result buffer at `result`, the nine arguments unchanged. -/
theorem run : θ_run defs (onTc (τ := τ) (main (F := Ideal))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v24 (Pipeline.mem_restRefs_of main_v24 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      ((h c).1 2).trans (((dats m 0 c).arrAt_in 2 rfl _).trans ((A_eq m c 2).trans (V_main_arg7 m c))),
      ((h c).1 4).trans (((dats m 0 c).arrAt_in 4 rfl _).trans ((A_eq m c 4).trans (V_main_arg8 m c)))⟩)
    (run_main m ρ)

end Cert.KernelIdeal.Final

end
-- ==== Proof.RefValue.lean ====
/-
  The reference program read at one output index.

  The reference ends with two contractions and two bias additions: for a row b,
    out(b) = Σ_h ( (Σ_k gene(b,k) · W1ᵀ(k,h)) + b1(h) ) · W2ᵀ(h,0)  +  b2,
  followed by a reshape of the 256 × 1 result to 256 entries. Reading the stages outermost first, each layout
  stage (reshape, broadcast, transpose) only re-indexes its operand; once the composed index maps are identified with
  plain coordinate pairs, what is left is literally the head function of the specification, with the sparse first
  layer kept as an unexamined array.
-/
import proofs.«177045_j79053168050211_2_alg».proof.Proof.Gen.ReferenceIdeal.Read
import proofs.«177045_j79053168050211_2_alg».proof.Proof.HeadSpec
import Idealize.ShloMosaic.Lib.ValueIdx
import Idealize.ShloMosaic.PureOps.Ideal.Laws
open scoped BigOperators
noncomputable section
namespace Cert.ReferenceIdeal.RefValue
open Cert.ReferenceIdeal Cert.ReferenceIdeal.Read Idealize.ShloMosaic Idealize.ShloMosaic.ValueIdx

theorem ref_apply (x0 : (⟨S256x100000, .f32⟩ : BufTy).Contents (Elt Ideal)) (x1 x2 : (⟨S600000, .i32⟩ : BufTy).Contents (Elt Ideal)) (x3 : (⟨S600000, .f32⟩ : BufTy).Contents (Elt Ideal)) (x4 : (⟨S18000, .f32⟩ : BufTy).Contents (Elt Ideal)) (x5 : (⟨S256x18000, .f32⟩ : BufTy).Contents (Elt Ideal)) (x6 : (⟨S256, .f32⟩ : BufTy).Contents (Elt Ideal)) (x7 : (⟨S1x256, .f32⟩ : BufTy).Contents (Elt Ideal)) (x8 : (⟨S1, .f32⟩ : BufTy).Contents (Elt Ideal)) (b : Fin 256) :
    val_main_v31 (F := Ideal) x0 x1 x2 x3 x4 x5 x6 x7 x8 (ix1 b)
      = Cert.Head.head (fun r k => val_main_v20 (F := Ideal) x0 x1 x2 x3 x4 (ix2 r k)) (fun h k => x5 (ix2 h k))
          (fun h => x6 (ix1 h)) (fun h => x7 (ix2 (0 : Fin 1) h)) (x8 (ix1 (0 : Fin 1))) b := by
  -- the reshape reads row b, column 0
  have e31 : idx_main_v31 (ix1 b) = ix2 b (0 : Fin 1) :=
    funext fun a => Fin.ext (by match a with | ⟨0, _⟩ => exact Nat.div_one _ | ⟨1, _⟩ => rfl)
  -- the two broadcasts of b2 read its only entry
  have e29 : idx_main_v28 (idx_main_v29 (ix2 b (0 : Fin 1))) = ix1 (0 : Fin 1) :=
    funext fun a => Fin.ext (by match a with | ⟨0, _⟩ => rfl)
  -- second contraction: left operand at (b, h), right operand W2ᵀ(h, 0) = W2(0, h)
  have el27 : ∀ h : Fin 256, lidx_main_v27 (ix2 b (0 : Fin 1)) h = ix2 b h := fun h =>
    funext fun a => Fin.ext (by match a with | ⟨0, _⟩ => rfl | ⟨1, _⟩ => rfl)
  have er27 : ∀ h : Fin 256, idx_main_v26 (ridx_main_v27 (ix2 b (0 : Fin 1)) h) = ix2 (0 : Fin 1) h := fun h =>
    funext fun a => Fin.ext (by match a with | ⟨0, _⟩ => rfl | ⟨1, _⟩ => rfl)
  -- the two broadcasts of b1 read entry h
  have e24 : ∀ h : Fin 256, idx_main_v23 (idx_main_v24 (ix2 b h)) = ix1 h := fun h =>
    funext fun a => Fin.ext (by match a with | ⟨0, _⟩ => rfl)
  -- first contraction: left operand at (b, k), right operand W1ᵀ(k, h) = W1(h, k)
  have el22 : ∀ (h : Fin 256) (k : Fin 18000), lidx_main_v22 (ix2 b h) k = ix2 b k := fun h k =>
    funext fun a => Fin.ext (by match a with | ⟨0, _⟩ => rfl | ⟨1, _⟩ => rfl)
  have er22 : ∀ (h : Fin 256) (k : Fin 18000), idx_main_v21 (ridx_main_v22 (ix2 b h) k) = ix2 h k := fun h k =>
    funext fun a => Fin.ext (by match a with | ⟨0, _⟩ => rfl | ⟨1, _⟩ => rfl)
  rw [val_main_v31_apply, e31, val_main_v30_apply, val_main_v29_apply, val_main_v28_apply, e29, val_main_v27_apply]
  simp only [val_main_v26_apply, val_main_v25_apply, val_main_v24_apply, val_main_v23_apply, val_main_v22_apply,
    val_main_v21_apply, el27, er27, e24, el22, er22, Ideal.addf_def]
  rfl

end Cert.ReferenceIdeal.RefValue

end
-- ==== Proof.lean ====
/-
  The kernel against its reference, on the extended reals.

  Both programs compute, for each of the 256 rows b,
      out(b) = Σ_h ( (Σ_k gene(b,k) · W1(h,k)) + b1(h) ) · W2(h) + b2,
  where gene is the sparse layer's output (gather, scale, scatter-add, bias): the same host operations in both
  programs, carried here as one unopened array. The reference contracts over the 18000 columns at once and takes the
  second contraction as a matrix product with the transposed weight row. The kernel pads gene and W1 with 48 zero
  columns, accumulates the first contraction over three column blocks of 6016 into a buffer carried across grid
  points, and takes the second contraction as a lane sum. Zero columns add 0 · 0 = 0, a sum over 3 · 6016 numbers is
  the sum over blocks and positions, and 0 + x = x: the two results agree entry by entry with no appeal to
  finiteness of the inputs. The idealization rewrote nothing, so the kernel and its idealization are one text.
-/
import proofs.«177045_j79053168050211_2_alg».proof.Defs
import proofs.«177045_j79053168050211_2_alg».proof.Proof.Gen.Kernel
import proofs.«177045_j79053168050211_2_alg».proof.Proof.Gen.Kernel.Skeleton
import proofs.«177045_j79053168050211_2_alg».proof.Proof.Gen.Kernel.Launch
import proofs.«177045_j79053168050211_2_alg».proof.Proof.Gen.Kernel.Points
import proofs.«177045_j79053168050211_2_alg».proof.Proof.Gen.Kernel.Frame
import proofs.«177045_j79053168050211_2_alg».proof.Proof.Gen.KernelIdeal
import proofs.«177045_j79053168050211_2_alg».proof.Proof.Gen.KernelIdeal.Skeleton
import proofs.«177045_j79053168050211_2_alg».proof.Proof.Gen.KernelIdeal.Launch
import proofs.«177045_j79053168050211_2_alg».proof.Proof.Gen.KernelIdeal.Points
import proofs.«177045_j79053168050211_2_alg».proof.Proof.Gen.KernelIdeal.Frame
import proofs.«177045_j79053168050211_2_alg».proof.Proof.Gen.ReferenceIdeal
import proofs.«177045_j79053168050211_2_alg».proof.Proof.Gen.ReferenceIdeal.Run
import proofs.«177045_j79053168050211_2_alg».proof.Proof.Gen.ReferenceIdeal.Read
import proofs.«177045_j79053168050211_2_alg».proof.Proof.Gen.Pre_finite_inputs
import proofs.«177045_j79053168050211_2_alg».proof.Proof.Final
import proofs.«177045_j79053168050211_2_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Entry b of both results is the head of row b of launch arrays that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v31_eq, a0, a1, a2, a3, a4, a5, a6, a7, a8]
  funext i
  obtain ⟨b, rfl⟩ : ∃ b : Fin 256, i = ix1 b := ⟨i 0, eq_ix1 i⟩
  rw [Cert.ReferenceIdeal.RefValue.ref_apply]
  exact (Cert.KernelIdeal.Final.result_apply m c b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
